-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x256x64 : Shape := ⟨4, ![1, 1, 256, 64]⟩
abbrev S1x1x2048x64 : Shape := ⟨4, ![1, 1, 2048, 64]⟩
abbrev S1x1x256x2048 : Shape := ⟨4, ![1, 1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .i32⟩
  | .hbm, ⟨5, _⟩ => ⟨S2x16x2048x64, .f32⟩
  | .hbm, ⟨6, _⟩ => ⟨S2x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x256x2048, .i32⟩
  | .local _ .vmem, ⟨7, _⟩ => ⟨S1x1x256x2048, .i32⟩
  | .local _ .vmem, ⟨8, _⟩ => ⟨S1x1x256x64, .f32⟩
  | .local _ .vmem, ⟨9, _⟩ => ⟨S1x1x256x64, .f32⟩
  | .local _ .vmem, ⟨10, _⟩ => ⟨S1x1x256x2048, .f32⟩
  | .local _ .vmem, ⟨11, _⟩ => ⟨S1x1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x16x2048x64.size a
  hwx0_0 : ∀ i : grid0.Coords, EltTy.bits .f32 = 32 ∨ (Rect.block (s := S2x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S2x16x2048x2048.size a
  hwx0_3 : ∀ i : grid0.Coords, EltTy.bits .i32 = 32 ∨ (Rect.block (s := S2x16x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S2x16x2048x64.size a
  hwx0_4 : ∀ i : grid0.Coords, EltTy.bits .f32 = 32 ∨ (Rect.block (s := S2x16x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S2x16x2048x2048.size a
  hwx0_5 : ∀ i : grid0.Coords, EltTy.bits .f32 = 32 ∨ (Rect.block (s := S2x16x2048x2048) S1x1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S_, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttentionLaw.lean ====
/-
  Scaled-dot-product attention with a boolean mask, as two functions of the argument arrays on the extended reals.

  For a batch b, a head h and a query row r the row of SCORES over the key positions j is
    s j = (mask(b,h,r,j) ? fill : the scaled dot product of query row r with key row j),
  the row of attention PROBABILITIES is the softmax  p j = exp (s j - max s) / Σ_j' exp (s j' - max s),
  and the CONTEXT at column e is Σ_j p j · value(b,h,j,e).

  The two programs spell this differently:
   * one scales the query entries by the constant 1/8 BEFORE the dot product, takes the row maximum as a fold of
     `max` from -∞, and multiplies the shifted exponentials by the reciprocal 1 / Σ;
   * the other divides the finished dot product by 8, folds `max` from -∞ and takes `max` with -∞ once more,
     adds the exponentials onto 0 and divides each by the sum.
  Over finite (real) query and key entries the two are one function: Σ_d (q_d · 1/8) · k_d = (Σ_d q_d · k_d) / 8 is
  distributivity in ℝ; every score is then real, so the row maximum is real, every shifted exponential is a positive
  real, their sum is a nonzero real, and on a nonzero divisor x · (1 / l) = x / l.  (At an infinite entry
  distributivity fails on the extended reals, and a row of exponentials that are all 0 would make the two quotients
  differ — which is why finiteness of the query and key arrays is used; the value array may be anything.)
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-! ## The float constants the programs spell -/

/-- `8.0` denotes the real 8. -/
theorem ofBits_eight : Ideal.ofBits .f32 0x41000000#32 = ((8 : ℝ) : EReal) := by
  simp [Ideal.ofBits, Ideal.ieee, -EReal.coe_mul]; norm_num

/-- `0.125` denotes the real 1/8. -/
theorem ofBits_eighth : Ideal.ofBits .f32 0x3E000000#32 = ((1 / 8 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-- The pattern of -∞ denotes the bottom element. -/
theorem ofBits_neg_inf : Ideal.ofBits .f32 0xFF800000#32 = ⊥ := by
  simp [Ideal.ofBits, Ideal.ieee]

/-- The mask fill `-10000.0` denotes a real number. -/
theorem ofBits_fill : Ideal.ofBits .f32 0xC61C4000#32 = ((-10000 : ℝ) : EReal) := by
  simp [Ideal.ofBits, Ideal.ieee, -EReal.coe_mul]; norm_num

/-! ## Sums of reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling one factor of every product by 1/8 is dividing the dot product by 8, over real entries. -/
theorem scaled_dot_eq_dot_div {δ : Type*} [Fintype δ] (q k : δ → ℝ) :
    ∑ d, ((q d : EReal) * ((1 / 8 : ℝ) : EReal)) * (k d : EReal)
      = Ideal.div (∑ d, (q d : EReal) * (k d : EReal)) ((8 : ℝ) : EReal) := by
  rw [Ideal.div_coe (by norm_num)]
  simp only [← EReal.coe_mul, ← coe_sum]
  rw [Finset.sum_mul]
  exact congrArg _ (Finset.sum_congr rfl fun d _ => by ring)

/-! ## One row of a softmax -/

section Row

variable {κ : Type*} [Fintype κ]

/-- The row maximum: the fold of `max` from -∞ (spelt as the programs spell it) over the row. -/
def rowMax (s : κ → EReal) : EReal := (Finset.univ : Finset κ).fold max (Ideal.ofBits .f32 0xFF800000#32) s

/-- The exponential of an entry shifted by the row maximum. -/
def expShift (s : κ → EReal) (j : κ) : EReal := Ideal.exp (s j - rowMax s)

/-- The probability as the first program computes it: the shifted exponential times the reciprocal of their sum. -/
def probMulRecip (s : κ → EReal) (j : κ) : EReal :=
  expShift s j * Ideal.div (Ideal.ofBits .f32 0x3F800000#32) (∑ j', expShift s j')

/-- The probability as the second program computes it: the maximum once more against -∞, the sum started at 0,
    and a quotient. -/
def probDiv (s : κ → EReal) (j : κ) : EReal :=
  Ideal.div (Ideal.exp (s j - max (Ideal.ofBits .f32 0xFF800000#32) (rowMax s)))
    (Ideal.ofBits .f32 0x00000000#32 + ∑ j', Ideal.exp (s j' - max (Ideal.ofBits .f32 0xFF800000#32) (rowMax s)))

variable [Nonempty κ]

/-- The maximum of a nonempty row of reals is real. -/
theorem rowMax_real (s : κ → EReal) (hs : ∀ j, ∃ r : ℝ, s j = r) : ∃ μ : ℝ, rowMax s = μ := by
  have hlt : rowMax s < ⊤ := by
    unfold rowMax
    rw [Finset.fold_max_lt]
    refine ⟨by rw [ofBits_neg_inf]; exact bot_lt_top, fun j _ => ?_⟩
    obtain ⟨r, hr⟩ := hs j
    rw [hr]; exact EReal.coe_lt_top r
  have hgt : ⊥ < rowMax s := by
    unfold rowMax
    rw [Finset.lt_fold_max]
    obtain ⟨j⟩ := ‹Nonempty κ›
    obtain ⟨r, hr⟩ := hs j
    exact Or.inr ⟨j, Finset.mem_univ j, by rw [hr]; exact EReal.bot_lt_coe r⟩
  exact ⟨(rowMax s).toReal, (EReal.coe_toReal hlt.ne hgt.ne').symm⟩

/-- Every shifted exponential of a row of reals is a positive real. -/
theorem expShift_real (s : κ → EReal) (hs : ∀ j, ∃ r : ℝ, s j = r) (j : κ) : ∃ e : ℝ, 0 < e ∧ expShift s j = e := by
  obtain ⟨μ, hμ⟩ := rowMax_real s hs
  obtain ⟨r, hr⟩ := hs j
  refine ⟨Real.exp (r - μ), Real.exp_pos _, ?_⟩
  unfold expShift
  rw [hμ, hr, ← EReal.coe_sub, Ideal.exp_coe]

/-- So their sum is not zero. -/
theorem sum_expShift_ne_zero (s : κ → EReal) (hs : ∀ j, ∃ r : ℝ, s j = r) : ∑ j, expShift s j ≠ 0 := by
  choose e he using expShift_real s hs
  have h : ∑ j, expShift s j = ((∑ j, e j : ℝ) : EReal) := by
    rw [coe_sum]; exact Finset.sum_congr rfl fun j _ => (he j).2
  rw [h]
  have hpos : 0 < ∑ j, e j := Finset.sum_pos (fun j _ => (he j).1) Finset.univ_nonempty
  exact_mod_cast hpos.ne'

/-- THE ROW LAW: over a nonempty row of real scores the two spellings of the probability agree. -/
theorem probMulRecip_eq_probDiv (s : κ → EReal) (hs : ∀ j, ∃ r : ℝ, s j = r) (j : κ) :
    probMulRecip s j = probDiv s j := by
  have hmax : max (Ideal.ofBits .f32 0xFF800000#32) (rowMax s) = rowMax s := by
    rw [ofBits_neg_inf]; exact max_eq_right bot_le
  have hl := sum_expShift_ne_zero s hs
  unfold probMulRecip probDiv
  rw [hmax, Ideal.ofBits_zero_f32, zero_add, ofBits_one]
  show expShift s j * Ideal.div 1 (∑ j', expShift s j') = Ideal.div (expShift s j) (∑ j', expShift s j')
  rw [Ideal.div, if_neg hl, Ideal.div, if_neg hl, one_mul]

end Row

/-! ## The two spellings over the argument arrays -/

/-- A query, key or value array: batch, head, position, feature. -/
abbrev Arr := (⟨4, ![2, 16, 2048, 64]⟩ : Shape).Idx → EReal
/-- A mask array (one bit per batch, head, query position and key position) and an array of that shape of numbers. -/
abbrev Mask := (⟨4, ![2, 16, 2048, 2048]⟩ : Shape).Idx → BitVec 1
abbrev Sq := (⟨4, ![2, 16, 2048, 2048]⟩ : Shape).Idx → EReal

/-- The masked score with the QUERY scaled by 1/8 before the dot product. -/
def scoreScaled (Q K : Arr) (M : Mask) (b : Fin 2) (h : Fin 16) (r j : Fin 2048) : EReal :=
  Scalar.select (M (ix4 b h r j)) (Ideal.ofBits .f32 0xC61C4000#32)
    (∑ d : Fin 64, (Q (ix4 b h r d) * Ideal.ofBits .f32 0x3E000000#32) * K (ix4 b h j d))

/-- The masked score with the DOT PRODUCT divided by 8. -/
def scoreDiv (Q K : Arr) (M : Mask) (b : Fin 2) (h : Fin 16) (r j : Fin 2048) : EReal :=
  Scalar.select (M (ix4 b h r j)) (Ideal.ofBits .f32 0xC61C4000#32)
    (Ideal.div (∑ d : Fin 64, Q (ix4 b h r d) * K (ix4 b h j d)) (Ideal.ofBits .f32 0x41000000#32))

/-- The probabilities, first spelling. -/
def probA (Q K : Arr) (M : Mask) : Sq := fun i => probMulRecip (scoreScaled Q K M (i 0) (i 1) (i 2)) (i 3)
/-- The probabilities, second spelling. -/
def probB (Q K : Arr) (M : Mask) : Sq := fun i => probDiv (scoreDiv Q K M (i 0) (i 1) (i 2)) (i 3)

/-- The context: each row of probabilities against the value columns. -/
def ctxOf (P : Sq) (V : Arr) : Arr := fun i => ∑ j : Fin 2048, P (ix4 (i 0) (i 1) (i 2) j) * V (ix4 (i 0) (i 1) j (i 3))

/-- Over real query and key entries the two scores are one number, and it is real. -/
theorem scoreScaled_eq_scoreDiv (Q K : Arr) (M : Mask) (hQ : ∀ i, ∃ r : ℝ, Q i = r) (hK : ∀ i, ∃ r : ℝ, K i = r)
    (b : Fin 2) (h : Fin 16) (r j : Fin 2048) :
    scoreScaled Q K M b h r j = scoreDiv Q K M b h r j ∧ ∃ x : ℝ, scoreScaled Q K M b h r j = x := by
  choose q hq using hQ
  choose k hk using hK
  have hdot : (∑ d : Fin 64, (Q (ix4 b h r d) * Ideal.ofBits .f32 0x3E000000#32) * K (ix4 b h j d))
      = Ideal.div (∑ d : Fin 64, Q (ix4 b h r d) * K (ix4 b h j d)) (Ideal.ofBits .f32 0x41000000#32) := by
    simp only [hq, hk, ofBits_eighth, ofBits_eight]
    exact scaled_dot_eq_dot_div (fun d => q (ix4 b h r d)) (fun d => k (ix4 b h j d))
  refine ⟨by unfold scoreScaled scoreDiv; rw [hdot], ?_⟩
  unfold scoreScaled
  by_cases hm : M (ix4 b h r j) = 1#1
  · rw [hm, select_one]; exact ⟨_, ofBits_fill⟩
  · rw [eq_zero_of_ne_one hm, select_zero]
    refine ⟨∑ d : Fin 64, q (ix4 b h r d) * (1 / 8) * k (ix4 b h j d), ?_⟩
    simp only [hq, hk, ofBits_eighth, coe_sum, EReal.coe_mul]

/-- THE LAW: over real query and key entries the two spellings of the probabilities are one array. -/
theorem probA_eq_probB (Q K : Arr) (M : Mask) (hQ : ∀ i, ∃ r : ℝ, Q i = r) (hK : ∀ i, ∃ r : ℝ, K i = r) :
    probA Q K M = probB Q K M := by
  funext i
  unfold probA probB
  have hrow : scoreScaled Q K M (i 0) (i 1) (i 2) = scoreDiv Q K M (i 0) (i 1) (i 2) :=
    funext fun j => (scoreScaled_eq_scoreDiv Q K M hQ hK (i 0) (i 1) (i 2) j).1
  exact (probMulRecip_eq_probDiv _ (fun j => (scoreScaled_eq_scoreDiv Q K M hQ hK (i 0) (i 1) (i 2) j).2) (i 3)).trans
    (congrArg (fun s => probDiv s (i 3)) hrow)

end Cert.Attention

end
-- ==== Proof.FiniteInputs.lean ====
/-
  From the precondition "every entry of the query, key and value arrays has absolute value below +∞" to
  "every query entry and every key entry is a real number".

  The precondition is a conjunction of three universally quantified comparisons |x| < +∞ over the entries of an array,
  each spelt as a fold of `and` from 1 over the array of comparison bits.  A fold of `and` that is 1 met only 1s, so
  each comparison holds at each index.  On the extended reals |x| = max x (-x), and the pattern of +∞ denotes ⊤; at
  x = ⊥ or x = ⊤ the maximum is ⊤, which is not below ⊤, so x is the image of a real.
-/
import proofs.«160753_j20547123544783_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Attention

open Idealize.ShloMosaic Idealize.ShloMosaic.ValueIdx

/-- The pattern of +∞ denotes the top element. -/
theorem ofBits_pos_inf : Ideal.ofBits .f32 0x7F800000#32 = ⊤ := by
  simp [Ideal.ofBits, Ideal.ieee]

/-- An extended real whose absolute value max x (-x) compares below ⊤ is the image of a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

theorem real_of_finite_inputs
    (q k v : FVec Ideal Cert.Pre_finite_inputs.S2x16x2048x64 .f32) (msk : IVec Cert.Pre_finite_inputs.S2x16x2048x2048 1)
    (h : Cert.Pre_finite_inputs.fn (F := Ideal) q k v msk = fun _ => 1#1) :
    (∀ i, ∃ r : ℝ, q i = (r : EReal)) ∧ (∀ i, ∃ r : ℝ, k i = (r : EReal)) := by
  have h0 := congrFun h ValueIdx.ix0
  dsimp only [Cert.Pre_finite_inputs.fn] at h0
  obtain ⟨hqk, _⟩ := IntOp.andi_eq_one.1 h0
  obtain ⟨hq, hk⟩ := IntOp.andi_eq_one.1 hqk
  refine ⟨fun i => ?_, fun i => ?_⟩
  · have e := Host.reduce_andi_all _ _ _ _ _ hq i
    have e' : Ideal.cmp .olt (max (q i) (-(q i))) (Ideal.ofBits .f32 0x7F800000#32) = 1#1 := e
    rw [ofBits_pos_inf] at e'
    exact real_of_abs_lt_top _ e'
  · have e := Host.reduce_andi_all _ _ _ _ _ hk i
    have e' : Ideal.cmp .olt (max (k i) (-(k i))) (Ideal.ofBits .f32 0x7F800000#32) = 1#1 := e
    rw [ofBits_pos_inf] at e'
    exact real_of_abs_lt_top _ e'

end Cert.Attention

end
-- ==== Proof.ReferenceValue.lean ====
/-
  The reference program's two results, read one operation at a time, are the specification's second spelling:
  its probabilities are the quotient form of the softmax of the masked, divided scores, and its context is each row of
  those probabilities against the value columns.

  The reading is index bookkeeping only.  At a position (b, h, r, j) the score is the mask's choice between the fill and
  the dot product of query row r with key row j divided by 8; the row maximum is the fold of max from -∞ over j, taken
  against -∞ once more; the shifted exponential is exp (score - that maximum); their sum over j starts from 0; the
  probability is the quotient; and the context at (b, h, r, e) is the sum over j of probability times value (b, h, j, e).
  No float constant is evaluated and no arithmetic law is used.
-/
import proofs.«160753_j20547123544783_2_alg».proof.Proof.Gen.ReferenceIdeal.Read
import proofs.«160753_j20547123544783_2_alg».proof.Proof.AttentionLaw
import Idealize.ShloMosaic.PureOps.Ideal.Laws
import Idealize.ShloMosaic.Lib.ValueIdx

noncomputable section

namespace Cert.Attention.Ref

open Cert.ReferenceIdeal Cert.ReferenceIdeal.Gen Cert.ReferenceIdeal.Read Idealize.ShloMosaic Idealize.ShloMosaic.ValueIdx
open Cert.Attention

/-! ## The composed index functions are the coordinate constructors -/

theorem lidx0_eq (i : S2x16x2048x2048.Idx) (k : Fin 64) :
    lidx_main_v0 i k = ix4 (n0 := 2) (n1 := 16) (n2 := 2048) (n3 := 64) (i 0) (i 1) (i 2) k :=
  funext fun a => Fin.ext (by match a with | ⟨0, _⟩ => rfl | ⟨1, _⟩ => rfl | ⟨2, _⟩ => rfl | ⟨3, _⟩ => rfl)

theorem ridx0_eq (i : S2x16x2048x2048.Idx) (k : Fin 64) :
    ridx_main_v0 i k = ix4 (n0 := 2) (n1 := 16) (n2 := 2048) (n3 := 64) (i 0) (i 1) (i 3) k :=
  funext fun a => Fin.ext (by match a with | ⟨0, _⟩ => rfl | ⟨1, _⟩ => rfl | ⟨2, _⟩ => rfl | ⟨3, _⟩ => rfl)

/-! ## The score -/

/-- The masked score at a position: the mask's choice between the fill and the dot product divided by 8. -/
theorem score_eq (x0 x1 : Arr) (x3 : Mask) (i : S2x16x2048x2048.Idx) :
    val_main_v3 (F := Ideal) x0 x1 x3 i = scoreDiv x0 x1 x3 (i 0) (i 1) (i 2) (i 3) := by
  rw [val_main_v3_apply, val_main_call0_v1_apply, val_main_call0_v0_apply, val_main_cst_0_apply, val_main_v2_apply,
    val_main_v0_apply, val_main_v1_apply, val_main_cst_apply]
  simp only [lidx0_eq, ridx0_eq, Ideal.hostDivf_def, Ideal.ofBits_def]
  unfold scoreDiv
  exact congrArg (fun m => Scalar.select (x3 m) _ _)
    (eq_ix4 (n0 := 2) (n1 := 16) (n2 := 2048) (n3 := 2048) i)

/-! ## The row maximum -/

/-- The row maximum as the program takes it: the fold of max from -∞ over the key positions, against -∞ once more. -/
theorem max_eq (x0 x1 : Arr) (x3 : Mask) (j : S2x16x2048.Idx) :
    val_main_v6 (F := Ideal) x0 x1 x3 j
      = max (Ideal.ofBits .f32 0xFF800000#32) (rowMax (scoreDiv x0 x1 x3 (j 0) (j 1) (j 2))) := by
  rw [val_main_v6_apply, val_main_v5_apply, val_main_cst_2_apply]
  have hred : S2x16x2048x2048.Reduces [3] S2x16x2048 := by decide
  have hfold : val_main_v4 (F := Ideal) x0 x1 x3 j
      = rowMax (scoreDiv x0 x1 x3 (j 0) (j 1) (j 2)) := by
    unfold val_main_v4
    refine (Host.reduce_eq_fold_single (FloatOps.maximumf (F := Ideal) (φ := .f32)) (val_main_v3 (F := Ideal) x0 x1 x3)
      (val_main_cst_1 (F := Ideal)) reducesTo_S2x16x2048x2048_S2x16x2048_d3 hred h_S_ j).trans ?_
    have hrow : (val_main_v3 (F := Ideal) x0 x1 x3) ∘ hred.lift j = scoreDiv x0 x1 x3 (j 0) (j 1) (j 2) :=
      funext fun k => (score_eq x0 x1 x3 (hred.lift j k)).trans rfl
    rw [hrow, val_main_cst_1_apply]
    rfl
  rw [hfold]
  rfl

/-! ## The shifted exponential, the sum and the quotient -/

/-- The exponential of the score shifted by the row maximum. -/
theorem exp_eq (x0 x1 : Arr) (x3 : Mask) (i : S2x16x2048x2048.Idx) :
    val_main_v10 (F := Ideal) x0 x1 x3 i
      = Ideal.exp (scoreDiv x0 x1 x3 (i 0) (i 1) (i 2) (i 3)
          - max (Ideal.ofBits .f32 0xFF800000#32) (rowMax (scoreDiv x0 x1 x3 (i 0) (i 1) (i 2)))) := by
  rw [val_main_v10_apply, val_main_v9_apply, val_main_v8_apply, val_main_v7_apply, score_eq, max_eq]
  simp only [Ideal.hostUnary_exp_def, Ideal.subf_def]
  rfl

/-- The sum of a row's shifted exponentials, started from 0. -/
theorem sum_eq (x0 x1 : Arr) (x3 : Mask) (j : S2x16x2048.Idx) :
    val_main_v11 (F := Ideal) x0 x1 x3 j
      = Ideal.ofBits .f32 0x00000000#32 + ∑ k : Fin 2048, Ideal.exp (scoreDiv x0 x1 x3 (j 0) (j 1) (j 2) k
          - max (Ideal.ofBits .f32 0xFF800000#32) (rowMax (scoreDiv x0 x1 x3 (j 0) (j 1) (j 2)))) := by
  rw [val_main_v11_apply, val_main_cst_3_apply]
  simp only [Ideal.ofBits_def]
  refine congrArg (_ + ·) (Finset.sum_congr rfl fun k _ => ?_)
  exact (exp_eq x0 x1 x3 (idx_main_v11 j k)).trans rfl

/-- THE PROBABILITIES of the reference are the specification's second spelling. -/
theorem ref_prob (x0 x1 : (⟨S2x16x2048x64, .f32⟩ : BufTy).Contents (Elt Ideal))
    (x3 : (⟨S2x16x2048x2048, .i1⟩ : BufTy).Contents (Elt Ideal)) :
    val_main_v14 (F := Ideal) x0 x1 x3 = Cert.Attention.probB x0 x1 x3 := by
  funext i
  rw [val_main_v14_apply, val_main_v13_apply, val_main_v12_apply, exp_eq, sum_eq]
  simp only [Ideal.hostDivf_def]
  rfl

/-! ## The context -/

theorem lidx15_eq (i : S2x16x2048x64.Idx) (k : Fin 2048) :
    lidx_main_v15 i k = ix4 (n0 := 2) (n1 := 16) (n2 := 2048) (n3 := 2048) (i 0) (i 1) (i 2) k :=
  funext fun a => Fin.ext (by match a with | ⟨0, _⟩ => rfl | ⟨1, _⟩ => rfl | ⟨2, _⟩ => rfl | ⟨3, _⟩ => rfl)

theorem ridx15_eq (i : S2x16x2048x64.Idx) (k : Fin 2048) :
    ridx_main_v15 i k = ix4 (n0 := 2) (n1 := 16) (n2 := 2048) (n3 := 64) (i 0) (i 1) k (i 3) :=
  funext fun a => Fin.ext (by match a with | ⟨0, _⟩ => rfl | ⟨1, _⟩ => rfl | ⟨2, _⟩ => rfl | ⟨3, _⟩ => rfl)

/-- THE CONTEXT of the reference is each row of those probabilities against the value columns. -/
theorem ref_ctx (x0 x1 x2 : (⟨S2x16x2048x64, .f32⟩ : BufTy).Contents (Elt Ideal))
    (x3 : (⟨S2x16x2048x2048, .i1⟩ : BufTy).Contents (Elt Ideal)) :
    val_main_v15 (F := Ideal) x0 x1 x2 x3 = Cert.Attention.ctxOf (Cert.Attention.probB x0 x1 x3) x2 := by
  funext i
  rw [val_main_v15_apply, ref_prob]
  unfold ctxOf
  refine Finset.sum_congr rfl fun k _ => ?_
  rw [lidx15_eq, ridx15_eq]

end Cert.Attention.Ref

end
-- ==== Proof.BlockValue.lean ====
/-
  One block of the attention kernel's arithmetic, read at an index of the extended reals.

  At a grid point the body holds a block of 256 query rows (x0, scaled by 1/8 on load), the 2048 key rows (x1), the
  2048 value rows (x2) and the 256 × 2048 block of the mask as 32-bit words (x3).  It forms the 256 × 2048 block of
  masked scores (`scoreBlock`: a matrix product of the scaled queries with the transposed keys, the mask fill where
  the mask word is not zero), normalises every row (`softmaxBlock`: subtract the row maximum, exponentiate, multiply
  by the reciprocal of the row sum) and multiplies the normalised block with the values.  Read at row r and column j
  each of these is the corresponding expression of the specification (`Cert.Attention`): the layout operations
  (shape casts, the transpose, the column broadcasts) only rename indices, a matrix product into a zero accumulator
  is the sum over the contracted index, a lane reduction is the sum or the fold of `max` over the row.
-/
import proofs.«160753_j20547123544783_2_alg».proof.Proof.Gen.KernelIdeal.Skeleton
import proofs.«160753_j20547123544783_2_alg».proof.Proof.AttentionLaw
import Idealize.ShloMosaic.Lib.Pipeline.Value
import Idealize.ShloMosaic.Lib.ValueIdx
import Idealize.ShloMosaic.PureOps.Ideal.Laws

noncomputable section

namespace Cert.Attention.Block

open Cert.KernelIdeal Cert.KernelIdeal.Facts₀ Idealize.ShloMosaic Idealize.ShloMosaic.ValueIdx
open Cert.KernelIdeal.Gen (k0_pay1 k0_pay2 k0_pay3)

/-! ## Layout operations read at an index -/

section Layout

variable {α : Type}

/-- Dropping the two unit axes of a [1,1,256,64] block. -/
theorem cast_q (x : S1x1x256x64.Idx → α) (h : S1x1x256x64.ShapeCasts S256x64) (r : Fin 256) (d : Fin 64) :
    shapeCast S256x64 x h (ix2 r d) = x (ix4 0 0 r d) :=
  shapeCast_apply x h (ix2 r d) (ix4 0 0 r d) (by
    rw [Shape.rowMajor_val_two, Shape.rowMajor_val_four]
    show ((0 * 1 + 0) * 256 + r.val) * 64 + d.val = r.val * 64 + d.val
    omega)

/-- Dropping the two unit axes of a [1,1,2048,64] block. -/
theorem cast_kv (x : S1x1x2048x64.Idx → α) (h : S1x1x2048x64.ShapeCasts S2048x64) (j : Fin 2048) (d : Fin 64) :
    shapeCast S2048x64 x h (ix2 j d) = x (ix4 0 0 j d) :=
  shapeCast_apply x h (ix2 j d) (ix4 0 0 j d) (by
    rw [Shape.rowMajor_val_two, Shape.rowMajor_val_four]
    show ((0 * 1 + 0) * 2048 + j.val) * 64 + d.val = j.val * 64 + d.val
    omega)

/-- Dropping the two unit axes of a [1,1,256,2048] block. -/
theorem cast_sq (x : S1x1x256x2048.Idx → α) (h : S1x1x256x2048.ShapeCasts S256x2048) (r : Fin 256) (j : Fin 2048) :
    shapeCast S256x2048 x h (ix2 r j) = x (ix4 0 0 r j) :=
  shapeCast_apply x h (ix2 r j) (ix4 0 0 r j) (by
    rw [Shape.rowMajor_val_two, Shape.rowMajor_val_four]
    show ((0 * 1 + 0) * 256 + r.val) * 2048 + j.val = r.val * 2048 + j.val
    omega)

/-- Adding the two unit axes back on a [256,2048] block. -/
theorem uncast_sq (x : S256x2048.Idx → α) (h : S256x2048.ShapeCasts S1x1x256x2048) (r : Fin 256) (j : Fin 2048) :
    shapeCast S1x1x256x2048 x h (ix4 0 0 r j) = x (ix2 r j) :=
  shapeCast_apply x h (ix4 0 0 r j) (ix2 r j) (by
    rw [Shape.rowMajor_val_two, Shape.rowMajor_val_four]
    show r.val * 2048 + j.val = ((0 * 1 + 0) * 256 + r.val) * 2048 + j.val
    omega)

/-- Adding the two unit axes back on a [256,64] block. -/
theorem uncast_q (x : S256x64.Idx → α) (h : S256x64.ShapeCasts S1x1x256x64) (r : Fin 256) (d : Fin 64) :
    shapeCast S1x1x256x64 x h (ix4 0 0 r d) = x (ix2 r d) :=
  shapeCast_apply x h (ix4 0 0 r d) (ix2 r d) (by
    rw [Shape.rowMajor_val_two, Shape.rowMajor_val_four]
    show r.val * 64 + d.val = ((0 * 1 + 0) * 256 + r.val) * 64 + d.val
    omega)

/-- A vector of 256 row values as a column. -/
theorem cast_col (x : S256.Idx → α) (h : S256.ShapeCasts S256x1) (r : Fin 256) :
    shapeCast S256x1 x h (ix2 r 0) = x (ix1 r) :=
  shapeCast_apply x h (ix2 r 0) (ix1 r) (by
    rw [Shape.rowMajor_val_one, Shape.rowMajor_val_two]
    show r.val = r.val * 1 + 0
    omega)

/-- A column broadcast along the rows. -/
theorem bcast_col (x : S256x1.Idx → α) (h : S256x1.Broadcasts S256x2048) (r : Fin 256) (j : Fin 2048) :
    broadcastTo S256x2048 x h (ix2 r j) = x (ix2 r 0) :=
  broadcastTo_apply x h (ix2 r j) (ix2 r 0) (fun a => match a with
    | ⟨0, _⟩ => by show r.val = if (256 : Nat) = 1 then 0 else r.val; rw [if_neg (by decide)]
    | ⟨1, _⟩ => by show 0 = if (1 : Nat) = 1 then 0 else j.val; rw [if_pos rfl])

/-- The transposed key block. -/
theorem transpose_k (x : S2048x64.Idx → α) (h : S2048x64.Transposes [1, 0] S64x2048) (d : Fin 64) (j : Fin 2048) :
    transpose S64x2048 [1, 0] x h (ix2 d j) = x (ix2 j d) :=
  transpose_apply [1, 0] x h (ix2 d j) (ix2 j d) (fun b => match b with
    | ⟨0, _⟩ => rfl
    | ⟨1, _⟩ => rfl)

end Layout

/-! ## The two matrix products and the two lane reductions -/

/-- On its row axis the left operand of the score product is read at the result's row, -/
theorem qk_lhs0 (i : S256x2048.Idx) (q : dot_S256x64_S64x2048_S256x2048_1_0_0_1_n_n.contr.Idx) : (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
/-- and on its column axis the right operand at the result's column. -/
theorem qk_rhs1 (i : S256x2048.Idx) (q : dot_S256x64_S64x2048_S256x2048_1_0_0_1_n_n.contr.Idx) : (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- Scaled queries against transposed keys: the sum over the 64 features. -/
theorem qk_apply (lhs : FVec Ideal S256x64 .bf16) (rhs : FVec Ideal S64x2048 .bf16) (r : Fin 256) (j : Fin 2048) :
    matmul dot_S256x64_S64x2048_S256x2048_1_0_0_1_n_n none lhs rhs (constant S256x2048 .f32 0x00000000#32) (ix2 r j)
      = ∑ k : Fin 64, lhs (ix2 r k) * rhs (ix2 k j) := by
  simp only [matmul]
  rw [Ideal.matmul_constant_zero_apply, ← Equiv.sum_comp (contrEquiv1 dot_S256x64_S64x2048_S256x2048_1_0_0_1_n_n 64 rfl rfl).symm]
  refine Finset.sum_congr rfl fun k _ => ?_
  have hk := contrEquiv1_symm_val dot_S256x64_S64x2048_S256x2048_1_0_0_1_n_n 64 rfl rfl k
  have el : dot_S256x64_S64x2048_S256x2048_1_0_0_1_n_n.lhsIdx (ix2 r j) ((contrEquiv1 dot_S256x64_S64x2048_S256x2048_1_0_0_1_n_n 64 rfl rfl).symm k) = ix2 r k := funext fun a => Fin.ext (by
    match a with
    | ⟨0, _⟩ => exact qk_lhs0 _ _
    | ⟨1, _⟩ => exact (dot_S256x64_S64x2048_S256x2048_1_0_0_1_n_n.lhsIdx_val_of_single rfl _ _).trans hk)
  have er : dot_S256x64_S64x2048_S256x2048_1_0_0_1_n_n.rhsIdx (ix2 r j) ((contrEquiv1 dot_S256x64_S64x2048_S256x2048_1_0_0_1_n_n 64 rfl rfl).symm k) = ix2 k j := funext fun a => Fin.ext (by
    match a with
    | ⟨0, _⟩ => exact (dot_S256x64_S64x2048_S256x2048_1_0_0_1_n_n.rhsIdx_val_of_single rfl _ _).trans hk
    | ⟨1, _⟩ => exact qk_rhs1 _ _)
  rw [el, er]

/-- The same two facts for the product of the probabilities with the values. -/
theorem pv_lhs0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_rhs1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Probabilities against values: the sum over the 2048 key positions. -/
theorem pv_apply (lhs : FVec Ideal S256x2048 .bf16) (rhs : FVec Ideal S2048x64 .bf16) (r : Fin 256) (e : Fin 64) :
    matmul dot_S256x2048_S2048x64_S256x64_1_0_0_1_n_n none lhs rhs (constant S256x64 .f32 0x00000000#32) (ix2 r e)
      = ∑ k : Fin 2048, lhs (ix2 r k) * rhs (ix2 k e) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r e) ((contrEquiv1 dot_S256x2048_S2048x64_S256x64_1_0_0_1_n_n 2048 rfl rfl).symm k) = ix2 r k := funext fun a => Fin.ext (by
    match a with
    | ⟨0, _⟩ => exact pv_lhs0 _ _
    | ⟨1, _⟩ => exact (dot_S256x2048_S2048x64_S256x64_1_0_0_1_n_n.lhsIdx_val_of_single rfl _ _).trans hk)
  have er : dot_S256x2048_S2048x64_S256x64_1_0_0_1_n_n.rhsIdx (ix2 r e) ((contrEquiv1 dot_S256x2048_S2048x64_S256x64_1_0_0_1_n_n 2048 rfl rfl).symm k) = ix2 k e := funext fun a => Fin.ext (by
    match a with
    | ⟨0, _⟩ => exact (dot_S256x2048_S2048x64_S256x64_1_0_0_1_n_n.rhsIdx_val_of_single rfl _ _).trans hk
    | ⟨1, _⟩ => exact pv_rhs1 _ _)
  rw [el, er]

/-- A row's sum. -/
theorem rowsum_apply (src : FVec Ideal S256x2048 .f32) (h : S256x2048.Reduces [1] S256) (hφ : FKind.Formats .f32)
    (hacc : (0x00000000#32 : BitVec 32) = FKind.add.neutral .f32 hφ) (r : Fin 256) :
    multiReduction .add [1] S256 src 0x00000000#32 h hφ hacc (ix1 r) = ∑ k : Fin 2048, src (ix2 r k) := by
  refine (Ideal.multiReduction_add_single src _ h hφ hacc (ix1 r)).trans ?_
  refine Finset.sum_congr rfl fun k _ => congrArg src (funext fun a => Fin.ext ?_)
  match a with
  | ⟨0, _⟩ => rfl
  | ⟨1, _⟩ => rfl

/-- A row's maximum, folded from -∞. -/
theorem rowmax_apply (src : FVec Ideal S256x2048 .f32) (h : S256x2048.Reduces [1] S256) (hφ : FKind.Formats .f32)
    (hacc : (0xFF800000#32 : BitVec 32) = FKind.maximumf.neutral .f32 hφ) (r : Fin 256) :
    multiReduction .maximumf [1] S256 src 0xFF800000#32 h hφ hacc (ix1 r) = rowMax (fun k : Fin 2048 => src (ix2 r k)) := by
  refine (Ideal.multiReduction_maximumf_single src _ h hφ hacc (ix1 r)).trans ?_
  have e : src ∘ h.lift (ix1 r) = fun k : Fin 2048 => src (ix2 r k) :=
    funext fun k => congrArg src (funext fun a => Fin.ext (by
      match a with
      | ⟨0, _⟩ => rfl
      | ⟨1, _⟩ => rfl))
  rw [e]
  rfl

/-! ## The body's arithmetic in three stages -/

section Stages

variable {F : FTy → Type} [FloatOps F]

/-- The block of masked scores. -/
def scoreBlock (x0 : Vec F S1x1x256x64 .f32) (x1 : Vec F S1x1x2048x64 .f32) (x3 : Vec F S1x1x256x2048 .i32) : FVec F S256x2048 .f32 :=
  select (cmpi .ne (shapeCast S256x2048 x3 shapeCasts_S1x1x256x2048_S256x2048) (constantI S256x2048 32 0#32))
    (broadcast S256x2048 (Scalar.ofBits .f32 0xC61C4000#32))
    (matmul dot_S256x64_S64x2048_S256x2048_1_0_0_1_n_n none
      (truncf .bf16 (mulf (shapeCast S256x64 x0 shapeCasts_S1x1x256x64_S256x64) (broadcast S256x64 (Scalar.ofBits .f32 0x3E000000#32))) bitsLt_bf16_f32)
      (transpose S64x2048 [1, 0] (truncf .bf16 (shapeCast S2048x64 x1 shapeCasts_S1x1x2048x64_S2048x64) bitsLt_bf16_f32) transposes_S2048x64_p1_0_S64x2048)
      (constant S256x2048 .f32 0x00000000#32))

/-- Every score minus its row's maximum, exponentiated. -/
def expBlock (s : FVec F S256x2048 .f32) : FVec F S256x2048 .f32 :=
  exp (subf s (broadcastTo S256x2048 (shapeCast S256x1 (multiReduction .maximumf [1] S256 s 0xFF800000#32 reduces_S256x2048_S256 (.inl rfl) rfl) shapeCasts_S256_S256x1) broadcasts_S256x1_S256x2048))

/-- The exponentials times the reciprocal of their row's sum. -/
def softmaxBlock (s : FVec F S256x2048 .f32) : FVec F S256x2048 .f32 :=
  mulf (expBlock s) (broadcastTo S256x2048 (divf (broadcast S256x1 (Scalar.ofBits .f32 0x3F800000#32))
    (shapeCast S256x1 (multiReduction .add [1] S256 (expBlock s) 0x00000000#32 reduces_S256x2048_S256 (.inl rfl) rfl) shapeCasts_S256_S256x1)) broadcasts_S256x1_S256x2048)

/-- The probability payload is the softmax of the score block. -/
theorem pay2_eq (x0 : Vec F S1x1x256x64 .f32) (x1 : Vec F S1x1x2048x64 .f32) (x3 : Vec F S1x1x256x2048 .i32) :
    k0_pay2 x0 x1 x3 = softmaxBlock (scoreBlock x0 x1 x3) := rfl

end Stages

/-- A masked score at row r and key position j. -/
theorem scoreBlock_apply (x0 : Vec Ideal S1x1x256x64 .f32) (x1 : Vec Ideal S1x1x2048x64 .f32) (x3 : Vec Ideal S1x1x256x2048 .i32)
    (r : Fin 256) (j : Fin 2048) :
    scoreBlock x0 x1 x3 (ix2 r j)
      = Scalar.select (IntOp.cmpi .ne (x3 (ix4 0 0 r j)) 0#32) (Ideal.ofBits .f32 0xC61C4000#32)
          (∑ d : Fin 64, (x0 (ix4 0 0 r d) * Ideal.ofBits .f32 0x3E000000#32) * x1 (ix4 0 0 j d)) := by
  unfold scoreBlock
  show Scalar.select (IntOp.cmpi .ne (shapeCast S256x2048 x3 shapeCasts_S1x1x256x2048_S256x2048 (ix2 r j)) 0#32) (Ideal.ofBits .f32 0xC61C4000#32) _ = _
  rw [cast_sq, qk_apply]
  refine congrArg _ (Finset.sum_congr rfl fun d _ => ?_)
  rw [transpose_k, truncf_apply, truncf_apply, mulf_apply, cast_q, cast_kv, broadcast_apply]
  rfl

/-- A shifted exponential at row r and key position j. -/
theorem expBlock_apply (s : FVec Ideal S256x2048 .f32) (r : Fin 256) (j : Fin 2048) :
    expBlock s (ix2 r j) = expShift (fun j' : Fin 2048 => s (ix2 r j')) j := by
  unfold expBlock expShift
  exact congrArg (fun z => Ideal.exp (s (ix2 r j) - z))
    ((bcast_col _ _ r j).trans ((cast_col _ _ r).trans (rowmax_apply s _ _ _ r)))

/-- A probability at row r and key position j. -/
theorem softmaxBlock_apply (s : FVec Ideal S256x2048 .f32) (r : Fin 256) (j : Fin 2048) :
    softmaxBlock s (ix2 r j) = probMulRecip (fun j' : Fin 2048 => s (ix2 r j')) j := by
  have hsum : (∑ k : Fin 2048, expBlock s (ix2 r k)) = ∑ k : Fin 2048, expShift (fun j' : Fin 2048 => s (ix2 r j')) k :=
    Finset.sum_congr rfl fun k _ => expBlock_apply s r k
  have hrecip : broadcastTo S256x2048 (divf (broadcast S256x1 (Scalar.ofBits (F := Ideal) .f32 0x3F800000#32))
      (shapeCast S256x1 (multiReduction .add [1] S256 (expBlock s) 0x00000000#32 reduces_S256x2048_S256 (.inl rfl) rfl) shapeCasts_S256_S256x1)) broadcasts_S256x1_S256x2048 (ix2 r j)
      = Ideal.div (Ideal.ofBits .f32 0x3F800000#32) (∑ k : Fin 2048, expShift (fun j' : Fin 2048 => s (ix2 r j')) k) :=
    (bcast_col _ _ r j).trans (congrArg (Ideal.div (Ideal.ofBits .f32 0x3F800000#32))
      (((cast_col _ _ r).trans (rowsum_apply (expBlock s) _ _ _ r)).trans hsum))
  unfold softmaxBlock probMulRecip
  exact congrArg₂ (· * ·) (expBlock_apply s r j) hrecip

/-- THE PROBABILITY PAYLOAD at row r and key position j: the first spelling's probability of the row of masked scores. -/
theorem pay2_apply (x0 : Vec Ideal S1x1x256x64 .f32) (x1 : Vec Ideal S1x1x2048x64 .f32) (x3 : Vec Ideal S1x1x256x2048 .i32)
    (r : Fin 256) (j : Fin 2048) :
    k0_pay2 x0 x1 x3 (ix2 r j)
      = probMulRecip (fun j' : Fin 2048 =>
          Scalar.select (IntOp.cmpi .ne (x3 (ix4 0 0 r j')) 0#32) (Ideal.ofBits .f32 0xC61C4000#32)
            (∑ d : Fin 64, (x0 (ix4 0 0 r d) * Ideal.ofBits .f32 0x3E000000#32) * x1 (ix4 0 0 j' d))) j := by
  rw [pay2_eq, softmaxBlock_apply]
  exact congrArg (fun f => probMulRecip f j) (funext fun j' => scoreBlock_apply x0 x1 x3 r j')

/-- THE STORED PROBABILITY BLOCK at its index. -/
theorem pay3_apply (x0 : Vec Ideal S1x1x256x64 .f32) (x1 : Vec Ideal S1x1x2048x64 .f32) (x3 : Vec Ideal S1x1x256x2048 .i32)
    (r : Fin 256) (j : Fin 2048) : k0_pay3 x0 x1 x3 (ix4 0 0 r j) = k0_pay2 x0 x1 x3 (ix2 r j) := by
  unfold k0_pay3
  exact uncast_sq _ _ r j

/-- THE CONTEXT PAYLOAD at row r and feature e: the row of the probability block against the value column. -/
theorem pay1_apply (p : FVec Ideal S256x2048 .f32) (x2 : Vec Ideal S1x1x2048x64 .f32) (r : Fin 256) (e : Fin 64) :
    k0_pay1 p x2 (ix4 0 0 r e) = ∑ j : Fin 2048, p (ix2 r j) * x2 (ix4 0 0 j e) := by
  unfold k0_pay1
  refine (uncast_q _ _ r e).trans ?_
  rw [pv_apply]
  refine Finset.sum_congr rfl fun j _ => ?_
  show p (ix2 r j) * shapeCast S2048x64 x2 shapeCasts_S1x1x2048x64_S2048x64 (ix2 j e) = _
  rw [cast_kv]

end Cert.Attention.Block

end
-- ==== Proof.ArrayValue.lean ====
/-
  From the blocks the kernel writes to the two whole result arrays.

  The grid has one point per batch b, head h and tile q of 256 query rows.  At the point the query window holds rows
  256·q … 256·q+255 of (b, h), the key and value windows all 2048 rows of (b, h), the mask window the same query rows
  against all key positions — as 32-bit words, which the program makes from the mask bits before the launch and the
  body tests against zero, so the test returns the mask bit —, and the two output windows the same query rows of the
  context and of the probabilities.  Hence what the point writes back is the block of the specification's first
  spelling (`probA`, and `ctxOf probA`) at its place, the blocks of all points tile both arrays, and after the run
  the arrays ARE those functions of the argument arrays.
-/
import proofs.«160753_j20547123544783_2_alg».proof.Proof.Gen.KernelIdeal.Value
import proofs.«160753_j20547123544783_2_alg».proof.Proof.BlockValue
import Idealize.ShloMosaic.Lib.Pipeline.Value
import Idealize.ShloMosaic.Lib.StableHlo.Run
import Idealize.ShloMosaic.Lib.ValueIdx

set_option maxRecDepth 16384

noncomputable section

namespace Cert.Attention.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attention Cert.Attention.Block

variable (m : (ℓ : Loc nD τ sig) → Buf (Elt Ideal) ℓ) (ρ : Dev nD → PrngReg)

/-! ## What the body leaves in the two output blocks, at an index -/

theorem offsets_zero : (![0, 0, 0, 0] : Fin 4 → Nat) = fun _ => 0 := funext fun a => by fin_cases a <;> rfl

/-- The probability block the body stores. -/
theorem out5_apply (x0 : Vec Ideal S1x1x256x64 .f32) (x1 x2 : Vec Ideal S1x1x2048x64 .f32) (x3 : Vec Ideal S1x1x256x2048 .i32)
    (r : Fin 256) (j : Fin 2048) :
    out0_5 x0 x1 x2 x3 (ix4 0 0 r j) = k0_pay2 x0 x1 x3 (ix2 r j) := by
  unfold out0_5
  rw [View.canon_unit_zero offsets_zero]
  simp only [View.ld_unit_zero (S := S1x1x256x64) offsets_zero, View.ld_unit_zero (S := S1x1x2048x64) offsets_zero,
    View.ld_unit_zero (S := S1x1x256x2048) offsets_zero]
  exact pay3_apply x0 x1 x3 r j

/-- The context block the body stores: the probability block against the value block. -/
theorem out4_apply (x0 : Vec Ideal S1x1x256x64 .f32) (x1 x2 : Vec Ideal S1x1x2048x64 .f32) (x3 : Vec Ideal S1x1x256x2048 .i32)
    (r : Fin 256) (e : Fin 64) :
    out0_4 x0 x1 x2 x3 (ix4 0 0 r e) = ∑ j : Fin 2048, k0_pay2 x0 x1 x3 (ix2 r j) * x2 (ix4 0 0 j e) := by
  unfold out0_4
  rw [View.canon_unit_zero offsets_zero]
  simp only [View.ld_unit_zero (S := S1x1x256x64) offsets_zero, View.ld_unit_zero (S := S1x1x2048x64) offsets_zero,
    View.ld_unit_zero (S := S1x1x256x2048) offsets_zero]
  exact pay1_apply _ x2 r e

/-- An index of a block with two leading unit axes is determined by its last two coordinates. -/
theorem blockIdx_eq {A B : Nat} (y : (⟨4, ![1, 1, A, B]⟩ : Shape).Idx) : y = ix4 0 0 (y 2) (y 3) :=
  funext fun a => match a with
    | ⟨0, _⟩ => Fin.ext (by have h : (y 0).val < 1 := (y 0).isLt; show (y 0).val = 0; omega)
    | ⟨1, _⟩ => Fin.ext (by have h : (y 1).val < 1 := (y 1).isLt; show (y 1).val = 0; omega)
    | ⟨2, _⟩ => rfl
    | ⟨3, _⟩ => rfl

/-! ## The mask words -/

/-- The array the mask window stages holds each mask bit widened to a 32-bit word. -/
theorem mask_words (c : Dev nD) :
    (V m c main_v0 : S2x16x2048x2048.Idx → BitVec 32) = extui 32 (m ((c : Thread nD τ).loc main_arg3)) Facts₀.natLt_1_32 := by
  dsimp only [V, hostOps0]; after_results

/-- A widened bit is not the zero word exactly when the bit is set. -/
theorem word_ne_zero (b : BitVec 1) : IntOp.cmpi .ne (b.setWidth 32) 0#32 = b := by
  by_cases h : b = 1#1
  · subst h; rfl
  · rw [eq_zero_of_ne_one h]; rfl

/-! ## Where each window's block sits -/

/-- The printed index maps side by side: the query, mask and both output windows move together (batch, head, tile,
    column block 0); the key and value windows follow batch and head only. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = win0_5.index t (1 : Fin 4)
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (3 : Fin 4) = 0 :=
  (by decide +kernel : ∀ t : Fin grid0.N, _)

/-- The point of batch q0, head q1 and tile q2, in the row-major order of the grid. -/
def pointOf (q0 : Fin 2) (q1 : Fin 16) (q2 : Fin 8) : Fin grid0.N :=
  ⟨q0.val * 128 + q1.val * 8 + q2.val, by have h0 := q0.isLt; have h1 := q1.isLt; have h2 := q2.isLt; rw [N_0]; omega⟩

/-- Its block index is (q0, q1, q2, 0), decided over the 256 points. -/
theorem index_pointOf : ∀ (q0 : Fin 2) (q1 : Fin 16) (q2 : Fin 8), win0_5.index (pointOf q0 q1 q2) = ![q0.val, q1.val, q2.val, 0] := by
  decide +kernel

/-- Every (batch, head, tile) is some point's. -/
theorem idx_onto : ∀ (q0 : Fin 2) (q1 : Fin 16) (q2 : Fin 8), ∃ t : Fin cfg0.N, win0_5.index t = ![q0.val, q1.val, q2.val, 0] :=
  fun q0 q1 q2 => ⟨pointOf q0 q1 q2, index_pointOf q0 q1 q2⟩

/-- A row of masked scores of a block is the specification's row, once the block's entries are the arrays' entries. -/
theorem score_row_eq (x0 : Vec Ideal S1x1x256x64 .f32) (x1 : Vec Ideal S1x1x2048x64 .f32) (x3 : Vec Ideal S1x1x256x2048 .i32)
    (Q K : Arr) (M : Mask) (b : Fin 2) (h : Fin 16) (r' : Fin 2048) (r : Fin 256)
    (hq : ∀ d : Fin 64, x0 (ix4 0 0 r d) = Q (ix4 b h r' d))
    (hk : ∀ (j : Fin 2048) (d : Fin 64), x1 (ix4 0 0 j d) = K (ix4 b h j d))
    (hm : ∀ j : Fin 2048, IntOp.cmpi .ne (x3 (ix4 0 0 r j)) 0#32 = M (ix4 b h r' j)) :
    (fun j' : Fin 2048 =>
        Scalar.select (IntOp.cmpi .ne (x3 (ix4 0 0 r j')) 0#32) (Ideal.ofBits .f32 0xC61C4000#32)
          (∑ d : Fin 64, (x0 (ix4 0 0 r d) * Ideal.ofBits .f32 0x3E000000#32) * x1 (ix4 0 0 j' d)))
      = scoreScaled Q K M b h r' := by
  funext j'
  unfold scoreScaled
  rw [hm j']
  refine congrArg _ (Finset.sum_congr rfl fun d _ => ?_)
  rw [hq d, hk j' d]

section Reads

variable (c : Dev nD) (t : Fin cfg0.N)

/-- A query entry of the point's block is the array's entry at (batch, head, 256·tile + r, d). -/
theorem read_q (r : Fin 256) (d : Fin 64) (i : S2x16x2048x64.Idx)
    (h0 : (i 0).val = win0_5.index t (0 : Fin 4)) (h1 : (i 1).val = win0_5.index t (1 : Fin 4))
    (h2 : (i 2).val = win0_5.index t (2 : Fin 4) * 256 + r.val) (h3 : (i 3).val = d.val) :
    iblk m c 0 t (ix4 0 0 r d) = m ((c : Thread nD τ).loc main_arg0) i := by
  obtain ⟨e0, e1, e2, e3, -⟩ := idx_facts t
  unfold iblk
  show V m c main_arg0 (((cfg0.win 0).blk t).view.emb (ix4 0 0 r d)) = _
  rw [V_main_arg0]
  refine congrArg _ (funext fun a => Fin.ext ?_)
  match a with
  | ⟨0, _⟩ => show win0_0.index t (0 : Fin 4) * 1 + 1 * 0 = (i 0).val; omega
  | ⟨1, _⟩ => show win0_0.index t (1 : Fin 4) * 1 + 1 * 0 = (i 1).val; omega
  | ⟨2, _⟩ => show win0_0.index t (2 : Fin 4) * 256 + 1 * r.val = (i 2).val; omega
  | ⟨3, _⟩ => show win0_0.index t (3 : Fin 4) * 64 + 1 * d.val = (i 3).val; omega

/-- A key entry of the point's block is the array's entry at (batch, head, j, d). -/
theorem read_k (j : Fin 2048) (d : Fin 64) (i : S2x16x2048x64.Idx)
    (h0 : (i 0).val = win0_5.index t (0 : Fin 4)) (h1 : (i 1).val = win0_5.index t (1 : Fin 4))
    (h2 : (i 2).val = j.val) (h3 : (i 3).val = d.val) :
    iblk m c 1 t (ix4 0 0 j d) = m ((c : Thread nD τ).loc main_arg1) i := by
  obtain ⟨-, -, -, -, e0, e1, e2, e3, -⟩ := idx_facts t
  unfold iblk
  show V m c main_arg1 (((cfg0.win 1).blk t).view.emb (ix4 0 0 j d)) = _
  rw [V_main_arg1]
  refine congrArg _ (funext fun a => Fin.ext ?_)
  match a with
  | ⟨0, _⟩ => show win0_1.index t (0 : Fin 4) * 1 + 1 * 0 = (i 0).val; omega
  | ⟨1, _⟩ => show win0_1.index t (1 : Fin 4) * 1 + 1 * 0 = (i 1).val; omega
  | ⟨2, _⟩ => show win0_1.index t (2 : Fin 4) * 2048 + 1 * j.val = (i 2).val; omega
  | ⟨3, _⟩ => show win0_1.index t (3 : Fin 4) * 64 + 1 * d.val = (i 3).val; omega

/-- A value entry of the point's block is the array's entry at (batch, head, j, e). -/
theorem read_v (j : Fin 2048) (e : Fin 64) (i : S2x16x2048x64.Idx)
    (h0 : (i 0).val = win0_5.index t (0 : Fin 4)) (h1 : (i 1).val = win0_5.index t (1 : Fin 4))
    (h2 : (i 2).val = j.val) (h3 : (i 3).val = e.val) :
    iblk m c 2 t (ix4 0 0 j e) = m ((c : Thread nD τ).loc main_arg2) i := by
  obtain ⟨-, -, -, -, -, -, -, -, e0, e1, e2, e3, -⟩ := idx_facts t
  unfold iblk
  show V m c main_arg2 (((cfg0.win 2).blk t).view.emb (ix4 0 0 j e)) = _
  rw [V_main_arg2]
  refine congrArg _ (funext fun a => Fin.ext ?_)
  match a with
  | ⟨0, _⟩ => show win0_2.index t (0 : Fin 4) * 1 + 1 * 0 = (i 0).val; omega
  | ⟨1, _⟩ => show win0_2.index t (1 : Fin 4) * 1 + 1 * 0 = (i 1).val; omega
  | ⟨2, _⟩ => show win0_2.index t (2 : Fin 4) * 2048 + 1 * j.val = (i 2).val; omega
  | ⟨3, _⟩ => show win0_2.index t (3 : Fin 4) * 64 + 1 * e.val = (i 3).val; omega

/-- The body's test of a mask word of the point's block returns the mask bit at (batch, head, 256·tile + r, j). -/
theorem read_mask (r : Fin 256) (j : Fin 2048) (i : S2x16x2048x2048.Idx)
    (h0 : (i 0).val = win0_5.index t (0 : Fin 4)) (h1 : (i 1).val = win0_5.index t (1 : Fin 4))
    (h2 : (i 2).val = win0_5.index t (2 : Fin 4) * 256 + r.val) (h3 : (i 3).val = j.val) :
    IntOp.cmpi .ne (iblk m c 3 t (ix4 0 0 r j)) 0#32 = m ((c : Thread nD τ).loc main_arg3) i := by
  obtain ⟨-, -, -, -, -, -, -, -, -, -, -, -, e0, e1, e2, e3, -⟩ := idx_facts t
  unfold iblk
  show IntOp.cmpi .ne ((V m c main_v0 : S2x16x2048x2048.Idx → BitVec 32) (((cfg0.win 3).blk t).view.emb (ix4 0 0 r j))) 0#32 = _
  rw [mask_words, extui_apply, word_ne_zero]
  refine congrArg _ (funext fun a => Fin.ext ?_)
  match a with
  | ⟨0, _⟩ => show win0_3.index t (0 : Fin 4) * 1 + 1 * 0 = (i 0).val; omega
  | ⟨1, _⟩ => show win0_3.index t (1 : Fin 4) * 1 + 1 * 0 = (i 1).val; omega
  | ⟨2, _⟩ => show win0_3.index t (2 : Fin 4) * 256 + 1 * r.val = (i 2).val; omega
  | ⟨3, _⟩ => show win0_3.index t (3 : Fin 4) * 2048 + 1 * j.val = (i 3).val; omega

/-- THE BLOCK OF PROBABILITIES the point computes is the specification's, at (batch, head, 256·tile + r, j). -/
theorem block_prob (r : Fin 256) (j : Fin 2048) (i : S2x16x2048x2048.Idx)
    (h0 : (i 0).val = win0_5.index t (0 : Fin 4)) (h1 : (i 1).val = win0_5.index t (1 : Fin 4))
    (h2 : (i 2).val = win0_5.index t (2 : Fin 4) * 256 + r.val) (h3 : (i 3).val = j.val) :
    k0_pay2 (iblk m c 0 t) (iblk m c 1 t) (iblk m c 3 t) (ix2 r j)
      = probA (m ((c : Thread nD τ).loc main_arg0)) (m ((c : Thread nD τ).loc main_arg1)) (m ((c : Thread nD τ).loc main_arg3)) i := by
  have hj : (i 3 : Fin 2048) = j := Fin.ext h3
  have hrow := score_row_eq (iblk m c 0 t) (iblk m c 1 t) (iblk m c 3 t)
    (m ((c : Thread nD τ).loc main_arg0)) (m ((c : Thread nD τ).loc main_arg1)) (m ((c : Thread nD τ).loc main_arg3)) (i 0) (i 1) (i 2) r
    (fun d => read_q m c t r d (ix4 (i 0) (i 1) (i 2) d) h0 h1 h2 rfl)
    (fun j' d => read_k m c t j' d (ix4 (i 0) (i 1) j' d) h0 h1 rfl rfl)
    (fun j' => read_mask m c t r j' (ix4 (i 0) (i 1) (i 2) j') h0 h1 h2 rfl)
  unfold probA
  exact ((pay2_apply (iblk m c 0 t) (iblk m c 1 t) (iblk m c 3 t) r j).trans
    (congrArg (fun f => probMulRecip f j) hrow)).trans (congrArg _ hj.symm)

end Reads

/-! ## What a point writes back -/

/-- Point `t` writes block `t` of the probabilities. -/
theorem flushed5_eq (c : Dev nD) (t : Fin cfg0.N) :
    (dats m 0 c).flushed 5 t = ((cfg0.win 5).blk t).view.read (Elt Ideal)
      (probA (m ((c : Thread nD τ).loc main_arg0)) (m ((c : Thread nD τ).loc main_arg1)) (m ((c : Thread nD τ).loc main_arg3))) := by
  rw [Value.flushed5]
  funext y
  have key : ∀ (r : Fin 256) (j : Fin 2048),
      out0_5 (iblk m c 0 t) (iblk m c 1 t) (iblk m c 2 t) (iblk m c 3 t) (ix4 0 0 r j)
        = probA (m ((c : Thread nD τ).loc main_arg0)) (m ((c : Thread nD τ).loc main_arg1)) (m ((c : Thread nD τ).loc main_arg3))
            (((cfg0.win 5).blk t).view.emb (ix4 0 0 r j)) := fun r j => by
    obtain ⟨-, -, -, -, -, -, -, -, -, -, -, -, -, -, -, -, -, -, -, -, e3⟩ := idx_facts t
    refine (out5_apply (iblk m c 0 t) (iblk m c 1 t) (iblk m c 2 t) (iblk m c 3 t) r j).trans ?_
    refine block_prob m c t r j _ ?_ ?_ ?_ ?_
    · show win0_5.index t (0 : Fin 4) * 1 + 1 * 0 = win0_5.index t (0 : Fin 4); omega
    · show win0_5.index t (1 : Fin 4) * 1 + 1 * 0 = win0_5.index t (1 : Fin 4); omega
    · show win0_5.index t (2 : Fin 4) * 256 + 1 * r.val = win0_5.index t (2 : Fin 4) * 256 + r.val; omega
    · show win0_5.index t (3 : Fin 4) * 2048 + 1 * j.val = j.val; omega
  have hy := blockIdx_eq (A := 256) (B := 2048) y
  show out0_5 (iblk m c 0 t) (iblk m c 1 t) (iblk m c 2 t) (iblk m c 3 t) y = probA _ _ _ (((cfg0.win 5).blk t).view.emb y)
  rw [hy]
  exact key (y 2) (y 3)

/-- Point `t` writes block `t` of the context. -/
theorem flushed4_eq (c : Dev nD) (t : Fin cfg0.N) :
    (dats m 0 c).flushed 4 t = ((cfg0.win 4).blk t).view.read (Elt Ideal)
      (ctxOf (probA (m ((c : Thread nD τ).loc main_arg0)) (m ((c : Thread nD τ).loc main_arg1)) (m ((c : Thread nD τ).loc main_arg3)))
        (m ((c : Thread nD τ).loc main_arg2))) := by
  rw [Value.flushed4]
  funext y
  have key : ∀ (r : Fin 256) (e : Fin 64),
      out0_4 (iblk m c 0 t) (iblk m c 1 t) (iblk m c 2 t) (iblk m c 3 t) (ix4 0 0 r e)
        = ctxOf (probA (m ((c : Thread nD τ).loc main_arg0)) (m ((c : Thread nD τ).loc main_arg1)) (m ((c : Thread nD τ).loc main_arg3)))
            (m ((c : Thread nD τ).loc main_arg2)) (((cfg0.win 4).blk t).view.emb (ix4 0 0 r e)) := fun r e => by
    obtain ⟨-, -, -, -, -, -, -, -, -, -, -, -, -, -, -, -, e0, e1, e2, e3, -⟩ := idx_facts t
    refine (out4_apply (iblk m c 0 t) (iblk m c 1 t) (iblk m c 2 t) (iblk m c 3 t) r e).trans ?_
    unfold ctxOf
    refine Finset.sum_congr rfl fun j _ => ?_
    have hb0 : ((((cfg0.win 4).blk t).view.emb (ix4 0 0 r e)) 0).val = win0_5.index t (0 : Fin 4) := by
      show win0_4.index t (0 : Fin 4) * 1 + 1 * 0 = _; omega
    have hb1 : ((((cfg0.win 4).blk t).view.emb (ix4 0 0 r e)) 1).val = win0_5.index t (1 : Fin 4) := by
      show win0_4.index t (1 : Fin 4) * 1 + 1 * 0 = _; omega
    have hb2 : ((((cfg0.win 4).blk t).view.emb (ix4 0 0 r e)) 2).val = win0_5.index t (2 : Fin 4) * 256 + r.val := by
      show win0_4.index t (2 : Fin 4) * 256 + 1 * r.val = _; omega
    have hb3 : ((((cfg0.win 4).blk t).view.emb (ix4 0 0 r e)) 3).val = e.val := by
      show win0_4.index t (3 : Fin 4) * 64 + 1 * e.val = _; omega
    rw [block_prob m c t r j (ix4 ((((cfg0.win 4).blk t).view.emb (ix4 0 0 r e)) 0) ((((cfg0.win 4).blk t).view.emb (ix4 0 0 r e)) 1) ((((cfg0.win 4).blk t).view.emb (ix4 0 0 r e)) 2) j) hb0 hb1 hb2 rfl,
      read_v m c t j e (ix4 ((((cfg0.win 4).blk t).view.emb (ix4 0 0 r e)) 0) ((((cfg0.win 4).blk t).view.emb (ix4 0 0 r e)) 1) j ((((cfg0.win 4).blk t).view.emb (ix4 0 0 r e)) 3)) hb0 hb1 rfl hb3]
  have hy := blockIdx_eq (A := 256) (B := 64) y
  show out0_4 (iblk m c 0 t) (iblk m c 1 t) (iblk m c 2 t) (iblk m c 3 t) y = ctxOf _ _ (((cfg0.win 4).blk t).view.emb y)
  rw [hy]
  exact key (y 2) (y 3)

/-! ## The blocks tile the arrays -/

theorem mem_blk5 (t : Fin cfg0.N) (i : S2x16x2048x2048.Idx) :
    i ∈ ((cfg0.win 5).blk t).view.set ↔ ∀ a : Fin 4, win0_5.index t a * S1x1x256x2048.size a ≤ (i a).val ∧ (i a).val < win0_5.index t a * S1x1x256x2048.size a + S1x1x256x2048.size a := by
  show i ∈ ((View.whole main_v1_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x256x64.size a ≤ (i a).val ∧ (i a).val < win0_4.index t a * S1x1x256x64.size a + S1x1x256x64.size a := by
  show i ∈ ((View.whole main_v1_0).slice (win0_4.rect t)).set ↔ _
  rw [View.set_slice_whole, Rect.mem_set_unit]
  exact Iff.rfl

/-- Every index of the probability array is in the block of the point of its batch, head and tile. -/
theorem cover5 (i : S2x16x2048x2048.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 256, by omega⟩
  have q0 : win0_5.index t (0 : Fin 4) = (i 0).val := congrFun ht 0
  have q1 : win0_5.index t (1 : Fin 4) = (i 1).val := congrFun ht 1
  have q2 : win0_5.index t (2 : Fin 4) = (i 2).val / 256 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 256 ≤ (i 2).val ∧ (i 2).val < win0_5.index t (2 : Fin 4) * 256 + 256; omega
  | ⟨3, _⟩ => show win0_5.index t (3 : Fin 4) * 2048 ≤ (i 3).val ∧ (i 3).val < win0_5.index t (3 : Fin 4) * 2048 + 2048; omega

/-- Every index of the context array likewise. -/
theorem cover4 (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 256, by omega⟩
  obtain ⟨-, -, -, -, -, -, -, -, -, -, -, -, -, -, -, -, e0, e1, e2, e3, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 256 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-! ## The arrays after the run -/

/-- The probability array after the run. -/
theorem final5 (c : Dev nD) : (dats m 0 c).arrAt 5 cfg0.N
    = probA (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The context array after the run. -/
theorem final4 (c : Dev nD) : (dats m 0 c).arrAt 4 cfg0.N
    = ctxOf (probA (m ((c : Thread nD τ).loc main_arg0)) (m ((c : Thread nD τ).loc main_arg1)) (m ((c : Thread nD τ).loc main_arg3)))
        (m ((c : Thread nD τ).loc main_arg2)) :=
  (dats m 0 c).arrAt_eq_of_cover 4 _ (fun t _ => flushed4_eq m c t) cover4

/-- THE KERNEL'S RUN: every weakly fair execution terminates with the two results at the specification's first
    spelling of the argument arrays, and the arguments unchanged. -/
theorem run : θ_run defs (onTc (τ := τ) (main (F := Ideal))) ⟨m, fun _ => 0, ρ⟩ fun r => ∀ c : Dev nD,
      r.2.mem ((c : Thread nD τ).loc main_v1_0)
        = ctxOf (probA (m ((c : Thread nD τ).loc main_arg0)) (m ((c : Thread nD τ).loc main_arg1)) (m ((c : Thread nD τ).loc main_arg3)))
            (m ((c : Thread nD τ).loc main_arg2))
      ∧ r.2.mem ((c : Thread nD τ).loc main_v1_1)
        = probA (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.Attention.Kernel

end
-- ==== Proof.lean ====
/-
  Masked scaled-dot-product attention: a tiled kernel against the plain jnp reference, equal on the extended reals.

  For a batch b, a head h and a query row r both programs form the row of scores over the 2048 key positions j —
  the mask's choice between the fill -10000 and the dot product of query row r with key row j scaled by 1/8 —,
  normalise it by a softmax (subtract the row maximum, exponentiate, divide by the row sum) into the row of attention
  probabilities, and return the probabilities together with the context, each row of probabilities against the value
  columns.  The kernel works on tiles of 256 query rows; it scales the QUERY entries by 1/8 before the product where
  the reference divides the finished product by 8, and it multiplies by the reciprocal of the row sum where the
  reference divides by it.

  The proof: what the kernel's two result arrays hold after its run is the first spelling of that function
  (Proof/BlockValue.lean: one tile's arithmetic at an index; Proof/ArrayValue.lean: the tiles' blocks cover the arrays),
  what the reference returns is the second spelling (Proof/ReferenceValue.lean), and over finite query and key
  entries — which the precondition gives (Proof/FiniteInputs.lean) — the two spellings are one function
  (Proof/AttentionLaw.lean: distributivity in ℝ for the scores; the row sum of exponentials is a nonzero real, on
  which x · (1 / l) = x / l).  The three frames are the programs' runs with the results forgotten, and the idealized
  kernel is the kernel's own text read on the extended reals (no rewrite was applied), so `preserves` is trivial.
-/
import proofs.«160753_j20547123544783_2_alg».proof.Defs
import proofs.«160753_j20547123544783_2_alg».proof.Proof.Gen.Kernel
import proofs.«160753_j20547123544783_2_alg».proof.Proof.Gen.Kernel.Skeleton
import proofs.«160753_j20547123544783_2_alg».proof.Proof.Gen.Kernel.Launch
import proofs.«160753_j20547123544783_2_alg».proof.Proof.Gen.Kernel.Points
import proofs.«160753_j20547123544783_2_alg».proof.Proof.Gen.Kernel.Frame
import proofs.«160753_j20547123544783_2_alg».proof.Proof.Gen.KernelIdeal
import proofs.«160753_j20547123544783_2_alg».proof.Proof.Gen.KernelIdeal.Skeleton
import proofs.«160753_j20547123544783_2_alg».proof.Proof.Gen.KernelIdeal.Launch
import proofs.«160753_j20547123544783_2_alg».proof.Proof.Gen.KernelIdeal.Points
import proofs.«160753_j20547123544783_2_alg».proof.Proof.Gen.KernelIdeal.Frame
import proofs.«160753_j20547123544783_2_alg».proof.Proof.Gen.ReferenceIdeal
import proofs.«160753_j20547123544783_2_alg».proof.Proof.Gen.Pre_finite_inputs
import proofs.«160753_j20547123544783_2_alg».proof.Proof.Gen.KernelIdeal.Value
import proofs.«160753_j20547123544783_2_alg».proof.Proof.Gen.ReferenceIdeal.Run
import proofs.«160753_j20547123544783_2_alg».proof.Proof.Gen.ReferenceIdeal.Read
import proofs.«160753_j20547123544783_2_alg».proof.Proof.AttentionLaw
import proofs.«160753_j20547123544783_2_alg».proof.Proof.FiniteInputs
import proofs.«160753_j20547123544783_2_alg».proof.Proof.ReferenceValue
import proofs.«160753_j20547123544783_2_alg».proof.Proof.ArrayValue
import Idealize.ShloMosaic.Adequacy
import Idealize.ShloMosaic.Init

noncomputable section

namespace Cert.Proof

open Idealize.ShloMosaic Idealize.ShloMosaic.TcCoe Idealize.SL.Sem Cert.Attention

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten between the kernel and its reading on the extended reals. -/
theorem preserves : Cert.preserves_Kernel_KernelIdeal := trivial

/-- From memories that agree on the arguments, finite in the query and the key, the kernel ends with the context and
    the probabilities in their first spelling and the reference with them in the second: one pair of arrays. -/
theorem algebraic : Cert.algebraic_KernelIdeal_ReferenceIdeal := by
  intro m ρ m' ρ' hpre hagree
  have hfin := fun c : Dev Cert.KernelIdeal.nD => real_of_finite_inputs _ _ _ _ (hpre c)
  refine ⟨_, _, Cert.Attention.Kernel.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.Attention.Ref.ref_ctx, (hagree c).1, (hagree c).2.1,
      (hagree c).2.2.1, (hagree c).2.2.2, probA_eq_probB _ _ _ (hfin c).1 (hfin c).2]
  · rw [(h c).2.1, Cert.ReferenceIdeal.Read.val_main_v14_eq, Cert.Attention.Ref.ref_prob, (hagree c).1, (hagree c).2.1,
      (hagree c).2.2.2, probA_eq_probB _ _ _ (hfin c).1 (hfin c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
